-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x4097 : Shape := ⟨2, ![4096, 4097]⟩
abbrev S65536 : Shape := ⟨1, ![65536]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S4096x4096 .f32) (main_arg1 : IVec S4096x4097 32) (main_arg2 : FVec F S65536 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S65536 .f32 := Host.absf main_arg2
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  main_v8
-- ==== Kernel.lean ====
abbrev S4096x4096 : Shape := ⟨2, ![4096, 4096]⟩
abbrev S4096x4097 : Shape := ⟨2, ![4096, 4097]⟩
abbrev S65536 : Shape := ⟨1, ![65536]⟩
abbrev S4096x1 : Shape := ⟨2, ![4096, 1]⟩
abbrev S4096 : Shape := ⟨1, ![4096]⟩
abbrev S_ : Shape := ⟨0, ![]⟩
abbrev S4096x4096x1 : Shape := ⟨3, ![4096, 4096, 1]⟩
abbrev S1x4096 : Shape := ⟨2, ![1, 4096]⟩
abbrev S128x4096 : Shape := ⟨2, ![128, 4096]⟩

abbrev nBuf : Space → Nat
  | .hbm => 28
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4097, .i32⟩
  | .hbm, ⟨2, _⟩ => ⟨S65536, .f32⟩
  | .hbm, ⟨3, _⟩ => ⟨S4096x4096, .i32⟩
  | .hbm, ⟨4, _⟩ => ⟨S4096x1, .i32⟩
  | .hbm, ⟨5, _⟩ => ⟨S4096, .i32⟩
  | .hbm, ⟨6, _⟩ => ⟨S65536, .bf16⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096x1, .i32⟩
  | .hbm, ⟨15, _⟩ => ⟨S4096x4096, .bf16⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096, .f32⟩
  | .hbm, ⟨25, _⟩ => ⟨S1x4096, .f32⟩
  | .hbm, ⟨26, _⟩ => ⟨S4096x4096, .bf16⟩
  | .hbm, ⟨27, _⟩ => ⟨S4096x4096, .f32⟩
  | .local _ .vmem, ⟨0, _⟩ => ⟨S128x4096, .bf16⟩
  | .local _ .vmem, ⟨1, _⟩ => ⟨S128x4096, .bf16⟩
  | .local _ .vmem, ⟨2, _⟩ => ⟨S4096x4096, .bf16⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4096x4097_S4096x4096_0_0 : S4096x4097.Slices ![0, 0] S4096x4096
  slices_S4096x4097_S4096x1_0_4096 : S4096x4097.Slices ![0, 4096] S4096x1
  shapeCasts_S4096x1_S4096 : S4096x1.ShapeCasts S4096
  bitsLt_bf16_f32 : FTy.bits .bf16 < FTy.bits .f32
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  gather_S65536_S4096x4096x1_S4096x4096_n_0_n_n_0_2_1_wf : GatherDims.WF S65536 S4096x4096x1 S4096x4096 [] [0] [] [0] [] 2 ![1]
  gather_S65536_S4096x1_S4096_n_0_n_n_0_1_1_wf : GatherDims.WF S65536 S4096x1 S4096 [] [0] [] [0] [] 1 ![1]
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .bf16 = 32 ∨ (Rect.block (s := S4096x4096) S128x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def gather_S65536_S4096x1_S4096_n_0_n_n_0_1_1 : GatherDims S65536 S4096x1 S4096 where
  offsetDims := []
  collapsedSliceDims := [0]
  operandBatchingDims := []
  startIndicesBatchingDims := []
  startIndexMap := [0]
  indexVectorDim := 1
  sliceSizes := ![1]
  wf := gather_S65536_S4096x1_S4096_n_0_n_n_0_1_1_wf
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_v19) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x4097 : Shape := ⟨2, ![4096, 4097]⟩
abbrev S65536 : Shape := ⟨1, ![65536]⟩
abbrev S_ : Shape := ⟨0, ![]⟩
abbrev S4096x1 : Shape := ⟨2, ![4096, 1]⟩
abbrev S4096x4097x1 : Shape := ⟨3, ![4096, 4097, 1]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4097, .i32⟩
  | .hbm, ⟨2, _⟩ => ⟨S65536, .f32⟩
  | .hbm, ⟨3, _⟩ => ⟨S_, .f32⟩
  | .hbm, ⟨4, _⟩ => ⟨S4096x1, .f32⟩
  | .hbm, ⟨5, _⟩ => ⟨S4096x4097, .f32⟩
  | .hbm, ⟨6, _⟩ => ⟨S_, .i32⟩
  | .hbm, ⟨7, _⟩ => ⟨S4096x4097, .i32⟩
  | .hbm, ⟨8, _⟩ => ⟨S4096x4097, .i1⟩
  | .hbm, ⟨9, _⟩ => ⟨S_, .i32⟩
  | .hbm, ⟨10, _⟩ => ⟨S4096x4097, .i32⟩
  | .hbm, ⟨11, _⟩ => ⟨S4096x4097, .i32⟩
  | .hbm, ⟨12, _⟩ => ⟨S4096x4097, .i32⟩
  | .hbm, ⟨13, _⟩ => ⟨S4096x4097x1, .i32⟩
  | .hbm, ⟨14, _⟩ => ⟨S4096x4097, .f32⟩
  | .hbm, ⟨15, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  concatenates_S4096x4096_S4096x1_S4096x4097_d1 : Shape.Concatenates [S4096x4096, S4096x1] S4096x4097 1
  bcast_S_S4096x4097 : S_.BroadcastsInDim S4096x4097 (![] : Fin 0 → Fin S4096x4097.rank)
  bcast_S4096x4097_S4096x4097x1_0_1 : S4096x4097.BroadcastsInDim S4096x4097x1 (![0, 1] : Fin 2 → Fin S4096x4097x1.rank)
  gather_S65536_S4096x4097x1_S4096x4097_n_0_n_n_0_2_1_wf : GatherDims.WF S65536 S4096x4097x1 S4096x4097 [] [0] [] [0] [] 2 ![1]
  dot_S4096x4097_S4096x4097_S4096x4096_1_1_0_0_n_n_wf : DotDims.WF S4096x4097 S4096x4097 S4096x4096 [1] [1] [0] [0] [] []

variable [Facts₀]

def gather_S65536_S4096x4097x1_S4096x4097_n_0_n_n_0_2_1 : GatherDims S65536 S4096x4097x1 S4096x4097 where
  offsetDims := []
  collapsedSliceDims := [0]
  operandBatchingDims := []
  startIndicesBatchingDims := []
  startIndexMap := [0]
  indexVectorDim := 2
  sliceSizes := ![1]
  wf := gather_S65536_S4096x4097x1_S4096x4097_n_0_n_n_0_2_1_wf
def dot_S4096x4097_S4096x4097_S4096x4096_1_1_0_0_n_n : DotDims S4096x4097 S4096x4097 S4096x4096 where
  lhsContracting := [1]
  rhsContracting := [1]
  lhsNonContracting := [0]
  rhsNonContracting := [0]
  lhsBatch := []
  rhsBatch := []
  wf := dot_S4096x4097_S4096x4097_S4096x4096_1_1_0_0_n_n_wf

class Facts : Prop extends Facts₀ where

variable [Facts]
-- ==== Proof.HashedAffine.lean ====
/-
  The function both programs compute, stated once over literal shapes and with no program in sight.

  A table `W` of 65536 reals is read through an array `h` of 32-bit words, one word per (output column, input
  column) pair and one more per output column.  A word is read as a table position the way array indexing reads
  it: a negative word is moved up by the table's length, and the result, read as a signed integer, is clamped
  into the table.  The output at `(b, i)` is the affine map

      ∑ k < 4096, a (b, k) · W[h (i, k)]  +  W[h (i, 4096)] ,

  a row of `a` against row `i` of the virtual weight matrix `W[h]`, the last column of which is the bias.

  The one law that joins a sum over 4097 columns, whose last factor is the constant one, to this expression is
  the splitting of the last term off a finite sum, with `1 · x = x`; both hold for all extended reals, so no
  finiteness of the inputs is used anywhere.
-/
import Idealize.ShloMosaic.PureOps.Ideal
import Idealize.ShloMosaic.Lib.ValueIdx

noncomputable section

namespace Cert.HashedAffine

open Idealize.ShloMosaic Idealize.ShloMosaic.ValueIdx

/-- A start index as array indexing normalises it: a negative word has the table's length added. -/
def wrapWord (x : BitVec 32) : BitVec 32 :=
  Scalar.select (IntOp.cmpi .slt x 0#32) (IntOp.addi x 65536#32) x

/-- The table position a word names: normalised, read signed, clamped into `[0, 65535]`. -/
def bucket (x : BitVec 32) : Fin 65536 :=
  ⟨min (wrapWord x).toInt.toNat (65536 - 1), by omega⟩

/-- Reading the table at a clamped word that is the normalised form of `x` is reading it at `x`'s position. -/
theorem read_bucket (W : (⟨1, ![65536]⟩ : Shape).Idx → EReal) (x w : BitVec 32) (e : w = wrapWord x)
    (pf : min w.toInt.toNat (65536 - 1) < 65536) :
    W (ix1 ⟨min w.toInt.toNat (65536 - 1), pf⟩) = W (ix1 (bucket x)) := by
  subst e; rfl

/-- Entry `(i, k)` of the virtual weight matrix `W[h]`, for `k` up to and including the bias column 4096. -/
def weight (h : (⟨2, ![4096, 4097]⟩ : Shape).Idx → BitVec 32) (W : (⟨1, ![65536]⟩ : Shape).Idx → EReal)
    (i : Fin 4096) (k : Fin 4097) : EReal :=
  W (ix1 (bucket (h (ix2 i k))))

/-- The affine map at row `b` and column `i`. -/
def at_ (a : (⟨2, ![4096, 4096]⟩ : Shape).Idx → EReal) (h : (⟨2, ![4096, 4097]⟩ : Shape).Idx → BitVec 32)
    (W : (⟨1, ![65536]⟩ : Shape).Idx → EReal) (b i : Fin 4096) : EReal :=
  ∑ k : Fin 4096, a (ix2 b k) * weight h W i k.castSucc + weight h W i (Fin.last 4096)

/-- The whole result array. -/
def out (a : (⟨2, ![4096, 4096]⟩ : Shape).Idx → EReal) (h : (⟨2, ![4096, 4097]⟩ : Shape).Idx → BitVec 32)
    (W : (⟨1, ![65536]⟩ : Shape).Idx → EReal) : (⟨2, ![4096, 4096]⟩ : Shape).Idx → EReal :=
  fun j => at_ a h W (j 0) (j 1)

theorem out_ix2 (a : (⟨2, ![4096, 4096]⟩ : Shape).Idx → EReal) (h : (⟨2, ![4096, 4097]⟩ : Shape).Idx → BitVec 32)
    (W : (⟨1, ![65536]⟩ : Shape).Idx → EReal) (b i : Fin 4096) : out a h W (ix2 b i) = at_ a h W b i := rfl

/-- A sum over 4097 columns whose last left factor is one is the sum over the first 4096 plus the last right
    factor: the form in which a row extended by a one meets the extended weight row. -/
theorem sum_with_one (f g : Fin 4097 → EReal) (h1 : f (Fin.last 4096) = 1) :
    ∑ k : Fin 4097, f k * g k = ∑ k : Fin 4096, f k.castSucc * g k.castSucc + g (Fin.last 4096) := by
  rw [Fin.sum_univ_castSucc, h1, one_mul]

/-- The pattern of `1.0` denotes the real one. -/
theorem ofBits_one : Ideal.ofBits .f32 0x3F800000#32 = 1 := by
  simp [Ideal.ofBits, Ideal.ieee, -EReal.coe_mul]; norm_num

end Cert.HashedAffine

end
-- ==== Proof.BodyAtIndex.lean ====
/-
  The kernel body's one stored value, read at an index of the block, over the extended reals.

  The body multiplies its 128 × 4096 block of `a` against the whole 4096 × 4096 weight array, contracting the
  last axis of both into a zero accumulator, and adds the 1 × 4096 bias row broadcast down the 128 rows.  At
  entry `(p, q)` of the block that is

      ∑ k < 4096, x0 (p, k) · x1 (q, k)  +  x2 (0, q) :

  the product into a zero accumulator is the bare sum over the contraction index, that index is its one
  coordinate, and the broadcast row is read at its column.
-/
import proofs.«169024_j15513421873631_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The product's dimension record: left axis 1 against right axis 1, the rows of both kept. -/
abbrev D := dot_S128x4096_S4096x4096_S128x4096_1_1_0_0_n_n

theorem lhs_row (i : S128x4096.Idx) (u : D.contr.Idx) : (D.lhsIdx i u 0).val = (i 0).val := by
  unfold DotDims.lhsIdx
  rw [dif_neg (show ¬(0 : Fin S128x4096.rank) ∈ D.lhsBatch by decide),
    dif_pos (show (0 : Fin S128x4096.rank) ∈ D.lhsNonContracting by decide)]
  rfl

theorem lhs_col (i : S128x4096.Idx) (u : D.contr.Idx) : (D.lhsIdx i u 1).val = (u ⟨0, by decide⟩).val :=
  D.lhsIdx_val_of_single rfl i u

theorem rhs_row (i : S128x4096.Idx) (u : D.contr.Idx) : (D.rhsIdx i u 0).val = (i 1).val := by
  unfold DotDims.rhsIdx
  rw [dif_neg (show ¬(0 : Fin S4096x4096.rank) ∈ D.rhsBatch by decide),
    dif_pos (show (0 : Fin S4096x4096.rank) ∈ D.rhsNonContracting by decide)]
  rfl

theorem rhs_col (i : S128x4096.Idx) (u : D.contr.Idx) : (D.rhsIdx i u 1).val = (u ⟨0, by decide⟩).val :=
  D.rhsIdx_val_of_single rfl i u

/-- The product into the zero accumulator at `(p, q)`: row `p` of the left operand against row `q` of the right. -/
theorem matmul_at (l : FVec Ideal S128x4096 .bf16) (r : FVec Ideal S4096x4096 .bf16) (p : Fin 128) (q : Fin 4096) :
    matmul D none l r (constant (F := Ideal) S128x4096 .f32 0x00000000#32) (ix2 p q)
      = ∑ k : Fin 4096, (l (ix2 p k) : EReal) * (r (ix2 q k) : EReal) := by
  simp only [matmul]
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 4096 rfl rfl).symm k) = ix2 q k := funext fun a => Fin.ext (by
    match a with
    | ⟨0, _⟩ => exact rhs_row _ _
    | ⟨1, _⟩ => exact (rhs_col _ _).trans hk)
  rw [el, er]

/-- The stored value at `(p, q)`. -/
theorem stored_at (x0 : Vec Ideal S128x4096 .bf16) (x1 : Vec Ideal S4096x4096 .bf16) (x2 : Vec Ideal S1x4096 .f32)
    (p : Fin 128) (q : Fin 4096) :
    k0_pay1 (F := Ideal) x0 x1 x2 (ix2 p q)
      = ∑ k : Fin 4096, (x0 (ix2 p k) : EReal) * (x1 (ix2 q k) : EReal) + (x2 (ix2 (0 : Fin 1) q) : EReal) := by
  unfold k0_pay1
  show matmul D none (shapeCast S128x4096 x0 shapeCasts_S128x4096_S128x4096)
      (shapeCast S4096x4096 x1 shapeCasts_S4096x4096_S4096x4096) (constant (F := Ideal) S128x4096 .f32 0x00000000#32) (ix2 p q)
    + broadcastTo S128x4096 (shapeCast S1x4096 x2 shapeCasts_S1x4096_S1x4096) broadcasts_S1x4096_S128x4096 (ix2 p q) = _
  rw [shapeCast_self, shapeCast_self, shapeCast_self, matmul_at, broadcastTo_1b_ab_apply]

end Cert.KernelIdeal.Body

end
-- ==== Proof.LibGatherRows.lean ====
/-
  A general lemma: `stablehlo.gather` of a flat array at a column of start indices, read at an index.

  What `x[idx]` of a flat array `x : [N]` at an integer vector `idx : [R]` lowers to: a gather with no offset
  axes, the operand's one axis collapsed, start index map `[0]`, slice size one and the index vector on axis 1 of
  the start indices laid out as `[R, 1]`.  Result element `t` is `x` at the start index `idx[t, 0]`, read as a
  signed integer and clamped into `[0, N − 1]`.  It is the rank-one twin of the library's reading of a gather at
  an `[R, C, 1]` array of start indices, and is proved the same way.
-/
import Idealize.ShloMosaic.Lib.ValueIdx

noncomputable section

namespace Idealize.ShloMosaic.GatherRows

open Idealize.ShloMosaic Idealize.ShloMosaic.ValueIdx

variable {α : Type}

/-- The dimension numbers of `x[idx]` for an operand `[N]`, start indices `[R, 1]` and result `[R]`; their
    conditions `wf` are decided on a program's literal shapes. -/
abbrev rowDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `t`: the operand at the start index `idx[t, 0]`, read signed and clamped into
    `[0, N − 1]`. -/
theorem gather_rows_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) :
    Host.gather (rowDims N R wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (rowDims N R wf).start (ix1 t) idx 0 + (rowDims N R wf).batchCoord (ix1 t) 0
    + (rowDims N R wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims N R wf).startIndexMap from List.mem_singleton.mpr rfl)]
  have hsi : (rowDims N R wf).siIdx (ix1 t) ⟨List.idxOf (0 : Fin 1) (rowDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

end Idealize.ShloMosaic.GatherRows

end
-- ==== Proof.HostPrefix.lean ====
/-
  What the host operations in front of the kernel leave in the kernel's three operand arrays.

  The first operand is `a` itself (a change of float format, the identity on the extended reals).  The second
  is the 4096 × 4096 array of weights: the table, through the same identity, gathered at the first 4096 columns
  of the word array `h`, each word normalised as array indexing normalises it.  The third is the bias as one row:
  the table gathered at column 4096 of `h`, reshaped from a vector to a 1 × 4096 matrix.  Read at an index, the
  second is the virtual weight matrix `W[h]` at `(q, k)` for `k < 4096` and the third, at `(0, q)`, is `W[h]` at
  `(q, 4096)`.
-/
import proofs.«169024_j15513421873631_2_alg».proof.Proof.Gen.KernelIdeal.Frame
import proofs.«169024_j15513421873631_2_alg».proof.Proof.HashedAffine
import proofs.«169024_j15513421873631_2_alg».proof.Proof.LibGatherRows
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Idealize.ShloMosaic.GatherRows Cert.HashedAffine

variable {F : FTy → Type} [FloatOps F]

/-! ## The stages, as functions of the arguments -/

/-- The first 4096 columns of the word array. -/
def hashMain (h : IVec S4096x4097 32) : IVec S4096x4096 32 :=
  extractStridedSlice S4096x4096 ![0, 0] h slices_S4096x4097_S4096x4096_0_0

/-- Those words normalised: a negative one moved up by the table's length. -/
def startsMain (h : IVec S4096x4097 32) : IVec S4096x4096 32 :=
  select (cmpi .slt (hashMain h) (broadcastInDim S4096x4096 ![] bcast_S_S4096x4096 (constantI S_ 32 0#32)))
    (addi (hashMain h) (broadcastInDim S4096x4096 ![] bcast_S_S4096x4096 (constantI S_ 32 65536#32))) (hashMain h)

/-- The kernel's weight operand. -/
def weightRows (h : IVec S4096x4097 32) (W : FVec F S65536 .f32) : FVec F S4096x4096 .bf16 :=
  Host.gather gather_S65536_S4096x4096x1_S4096x4096_n_0_n_n_0_2_1 (truncf .bf16 W bitsLt_bf16_f32)
    (broadcastInDim S4096x4096x1 ![0, 1] bcast_S4096x4096_S4096x4096x1_0_1 (startsMain h))

/-- Column 4096 of the word array, as a vector. -/
def hashBias (h : IVec S4096x4097 32) : IVec S4096 32 :=
  shapeCast S4096 (extractStridedSlice S4096x1 ![0, 4096] h slices_S4096x4097_S4096x1_0_4096) shapeCasts_S4096x1_S4096

/-- Those words normalised. -/
def startsBias (h : IVec S4096x4097 32) : IVec S4096 32 :=
  select (cmpi .slt (hashBias h) (broadcastInDim S4096 ![] bcast_S_S4096 (constantI S_ 32 0#32)))
    (addi (hashBias h) (broadcastInDim S4096 ![] bcast_S_S4096 (constantI S_ 32 65536#32))) (hashBias h)

/-- The kernel's bias operand: one row. -/
def biasRow (h : IVec S4096x4097 32) (W : FVec F S65536 .f32) : FVec F S1x4096 .f32 :=
  shapeCast S1x4096 (Host.gather gather_S65536_S4096x1_S4096_n_0_n_n_0_1_1 W
    (broadcastInDim S4096x1 ![0] bcast_S4096_S4096x1_0 (startsBias h))) shapeCasts_S4096_S1x4096

/-! ## The region finds its operands at those stages -/

variable (m : (ℓ : Loc nD τ sig) → Buf (Elt F) ℓ)

theorem V_lhs (c : Dev nD) :
    (V m c main_v19 : FVec F S4096x4096 .bf16) = truncf .bf16 (m ((c : Thread nD τ).loc main_arg0)) bitsLt_bf16_f32 := by
  dsimp only [Gen.V, Gen.hostOps0]; after_results <;> rfl

theorem V_weights (c : Dev nD) :
    (V m c main_v10 : FVec F S4096x4096 .bf16)
      = weightRows (m ((c : Thread nD τ).loc main_arg1)) (m ((c : Thread nD τ).loc main_arg2)) := by
  dsimp only [Gen.V, Gen.hostOps0]; after_results <;> rfl

theorem V_bias (c : Dev nD) :
    (V m c main_v18 : FVec F S1x4096 .f32)
      = biasRow (m ((c : Thread nD τ).loc main_arg1)) (m ((c : Thread nD τ).loc main_arg2)) := by
  dsimp only [Gen.V, Gen.hostOps0]; after_results <;> rfl

/-! ## The stages read at an index -/

theorem hashMain_at (h : IVec S4096x4097 32) (q k : Fin 4096) : hashMain h (ix2 q k) = h (ix2 q k.castSucc) := by
  unfold hashMain
  exact slice2_axis1_apply 0 h slices_S4096x4097_S4096x4096_0_0 q k k.castSucc (Nat.zero_add _).symm

theorem startsMain_at (h : IVec S4096x4097 32) (q k : Fin 4096) :
    startsMain h (ix2 q k) = wrapWord (h (ix2 q k.castSucc)) := by
  unfold startsMain
  show Scalar.select (IntOp.cmpi .slt (hashMain h (ix2 q k)) 0#32) (IntOp.addi (hashMain h (ix2 q k)) 65536#32)
    (hashMain h (ix2 q k)) = _
  rw [hashMain_at]; rfl

/-- The weight operand at `(q, k)` is the virtual weight matrix there. -/
theorem weightRows_at (h : IVec S4096x4097 32) (W : FVec Ideal S65536 .f32) (q k : Fin 4096) :
    weightRows (F := Ideal) h W (ix2 q k) = weight h W q k.castSucc := by
  unfold weightRows
  refine (gather_take_apply (N := 65536) (R := 4096) (C := 4096) (by omega)
    gather_S65536_S4096x4096x1_S4096x4096_n_0_n_n_0_2_1_wf (truncf .bf16 W bitsLt_bf16_f32) _ (ix2 q k)).trans ?_
  refine (truncf_apply W bitsLt_bf16_f32 _).trans ?_
  refine read_bucket W _ _ ?_ _
  rw [broadcastInDim_apply _ bcast_S4096x4096_S4096x4096x1_0_1 (startsMain h) (takeIdx (ix2 q k)) (ix2 q k) (fun a =>
    match a with
    | ⟨0, _⟩ => by show q.val = if (4096 : Nat) = 1 then 0 else q.val; rw [if_neg (by decide)]
    | ⟨1, _⟩ => by show k.val = if (4096 : Nat) = 1 then 0 else k.val; rw [if_neg (by decide)])]
  exact startsMain_at h q k

theorem hashBias_at (h : IVec S4096x4097 32) (q : Fin 4096) : hashBias h (ix1 q) = h (ix2 q (Fin.last 4096)) := by
  unfold hashBias
  rw [shapeCast_apply _ shapeCasts_S4096x1_S4096 (ix1 q) (ix2 q (0 : Fin 1)) (by
    rw [Shape.rowMajor_val_two, Shape.rowMajor_val_one]
    show q.val * 1 + 0 = q.val
    omega)]
  exact slice2_axis1_apply 4096 h slices_S4096x4097_S4096x1_0_4096 q (0 : Fin 1) (Fin.last 4096) rfl

theorem startsBias_at (h : IVec S4096x4097 32) (q : Fin 4096) :
    startsBias h (ix1 q) = wrapWord (h (ix2 q (Fin.last 4096))) := by
  unfold startsBias
  show Scalar.select (IntOp.cmpi .slt (hashBias h (ix1 q)) 0#32) (IntOp.addi (hashBias h (ix1 q)) 65536#32)
    (hashBias h (ix1 q)) = _
  rw [hashBias_at]; rfl

/-- The bias operand's one row at column `q` is the virtual weight matrix's bias column at row `q`. -/
theorem biasRow_at (h : IVec S4096x4097 32) (W : FVec Ideal S65536 .f32) (u : Fin 1) (q : Fin 4096) :
    biasRow (F := Ideal) h W (ix2 u q) = weight h W q (Fin.last 4096) := by
  unfold biasRow
  rw [shapeCast_a_1a_apply]
  refine (gather_rows_apply (N := 65536) (R := 4096) (by omega) gather_S65536_S4096x1_S4096_n_0_n_n_0_1_1_wf W _ q).trans ?_
  refine read_bucket W _ _ ?_ _
  rw [broadcastInDim_apply _ bcast_S4096_S4096x1_0 (startsBias h) (ix2 q (0 : Fin 1)) (ix1 q) (fun a =>
    match a with
    | ⟨0, _⟩ => by show q.val = if (4096 : Nat) = 1 then 0 else q.val; rw [if_neg (by decide)])]
  exact startsBias_at h q

end Cert.KernelIdeal.Prefix

end
-- ==== Proof.KernelIsAffine.lean ====
/-
  The kernel's result array, after the run, is the hashed affine map of the three arguments.

  The grid has 32 points.  Point `t` reads rows `128 t … 128 t + 127` of the kernel's first operand, all of the
  weight operand and the one bias row, and writes rows `128 t … 128 t + 127` of the result.  With what the host
  operations left in the three operands, the body's stored value at entry `(p, q)` of the block is the map at
  `(128 t + p, q)`; the 32 blocks tile the result array, so the array ends holding the map everywhere.
-/
import proofs.«169024_j15513421873631_2_alg».proof.Proof.Gen.KernelIdeal.Value
import proofs.«169024_j15513421873631_2_alg».proof.Proof.HashedAffine
import proofs.«169024_j15513421873631_2_alg».proof.Proof.BodyAtIndex
import proofs.«169024_j15513421873631_2_alg».proof.Proof.HostPrefix

noncomputable section

namespace Cert.KernelIdeal.AsAffine

open Cert.KernelIdeal Cert.KernelIdeal.Gen Idealize.ShloMosaic Idealize.ShloMosaic.TcCoe Idealize.SL.Sem
open Idealize.ShloMosaic.Pipeline (Dat)
open Idealize.ShloMosaic.ValueIdx Cert.HashedAffine Cert.KernelIdeal.Prefix

variable (m : (ℓ : Loc nD τ sig) → Buf (Elt Ideal) ℓ) (ρ : Dev nD → PrngReg)

theorem origin : (![0, 0] : Fin 2 → Nat) = fun _ => 0 := funext fun a => by fin_cases a <;> rfl

/-- The three arguments on device `c`, at the types the map is stated over. -/
abbrev argA (c : Dev nD) : (⟨2, ![4096, 4096]⟩ : Shape).Idx → EReal := m ((c : Thread nD τ).loc main_arg0)
abbrev argH (c : Dev nD) : (⟨2, ![4096, 4097]⟩ : Shape).Idx → BitVec 32 := m ((c : Thread nD τ).loc main_arg1)
abbrev argW (c : Dev nD) : (⟨1, ![65536]⟩ : Shape).Idx → EReal := m ((c : Thread nD τ).loc main_arg2)

/-- The block indices over the grid: the first operand's row block is the result's, every other block index is
    zero, and the result's row block stays below 32. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every row block of the result is some point's. -/
theorem block_onto : ∀ q0 : Fin 32, ∃ t : Fin cfg0.N, win0_3.index t = ![q0.val, 0] :=
  (by decide +kernel : ∀ q0 : Fin 32, ∃ t : Fin grid0.N, win0_3.index t = ![q0.val, 0])

/-! ## The input blocks at a point, read at coordinates -/

/-- The first operand's block at `(p, k)` is `a` at row `r`, the block's row `p` in the array. -/
theorem lhs_block_at (c : Dev nD) (t : Fin cfg0.N) (p : Fin 128) (k r : Fin 4096)
    (hr : r.val = win0_0.index t (0 : Fin 2) * 128 + p.val) (h1 : win0_0.index t (1 : Fin 2) = 0) :
    (iblk m c 0 t : Vec Ideal S128x4096 .bf16) (ix2 p k) = argA m c (ix2 r k) := by
  show (V m c main_v19 : FVec Ideal S4096x4096 .bf16) (((cfg0.win 0).blk t).view.emb (ix2 p k)) = _
  have e : ((cfg0.win 0).blk t).view.emb (ix2 p k) = ix2 r k := funext fun a => Fin.ext (by
    match a with
    | ⟨0, _⟩ => show win0_0.index t (0 : Fin 2) * 128 + 1 * p.val = r.val; omega
    | ⟨1, _⟩ => show win0_0.index t (1 : Fin 2) * 4096 + 1 * k.val = k.val; omega)
  rw [e, V_lhs]; rfl

/-- The weight operand's block is the whole array: at `(q, k)` the virtual weight matrix there. -/
theorem rhs_block_at (c : Dev nD) (t : Fin cfg0.N) (q k : Fin 4096)
    (h0 : win0_1.index t (0 : Fin 2) = 0) (h1 : win0_1.index t (1 : Fin 2) = 0) :
    (iblk m c 1 t : Vec Ideal S4096x4096 .bf16) (ix2 q k) = weight (argH m c) (argW m c) q k.castSucc := by
  show (V m c main_v10 : FVec Ideal S4096x4096 .bf16) (((cfg0.win 1).blk t).view.emb (ix2 q k)) = _
  have e : ((cfg0.win 1).blk t).view.emb (ix2 q k) = ix2 q k := funext fun a => Fin.ext (by
    match a with
    | ⟨0, _⟩ => show win0_1.index t (0 : Fin 2) * 4096 + 1 * q.val = q.val; omega
    | ⟨1, _⟩ => show win0_1.index t (1 : Fin 2) * 4096 + 1 * k.val = k.val; omega)
  rw [e, V_weights]; exact weightRows_at _ _ q k

/-- The bias operand's block is its one row: at `(0, q)` the virtual weight matrix's bias column at row `q`. -/
theorem bias_block_at (c : Dev nD) (t : Fin cfg0.N) (q : Fin 4096)
    (h0 : win0_2.index t (0 : Fin 2) = 0) (h1 : win0_2.index t (1 : Fin 2) = 0) :
    (iblk m c 2 t : Vec Ideal S1x4096 .f32) (ix2 (0 : Fin 1) q) = weight (argH m c) (argW m c) q (Fin.last 4096) := by
  show (V m c main_v18 : FVec Ideal S1x4096 .f32) (((cfg0.win 2).blk t).view.emb (ix2 (0 : Fin 1) q)) = _
  have e : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 4096 + 1 * q.val = q.val; omega)
  rw [e, V_bias]; exact biasRow_at _ _ 0 q

/-! ## What a point writes back -/

/-- The body's stored value, for a block whose operands read as stated — the first at rows `128 R + p` of `a`,
    the second and third the virtual weight matrix and its bias column —, is the map at row `128 R + p`. -/
theorem block_value (A : (⟨2, ![4096, 4096]⟩ : Shape).Idx → EReal) (H : (⟨2, ![4096, 4097]⟩ : Shape).Idx → BitVec 32)
    (W : (⟨1, ![65536]⟩ : Shape).Idx → EReal) (R : Nat)
    (x0 : Vec Ideal S128x4096 .bf16) (x1 : Vec Ideal S4096x4096 .bf16) (x2 : Vec Ideal S1x4096 .f32)
    (h0 : ∀ (p : Fin 128) (k r : Fin 4096), r.val = R * 128 + p.val → (x0 (ix2 p k) : EReal) = A (ix2 r k))
    (h1 : ∀ q k : Fin 4096, (x1 (ix2 q k) : EReal) = weight H W q k.castSucc)
    (h2 : ∀ q : Fin 4096, (x2 (ix2 (0 : Fin 1) q) : EReal) = weight H W q (Fin.last 4096))
    (p : Fin 128) (q r : Fin 4096) (hr : r.val = R * 128 + p.val) :
    k0_pay1 (F := Ideal) x0 x1 x2 (ix2 p q) = out A H W (ix2 r q) := by
  rw [Body.stored_at, out_ix2]
  unfold at_
  congr 1
  · exact Finset.sum_congr rfl fun k _ => by rw [h0 p k r hr, h1]
  · exact h2 q

/-- WHAT POINT `t` WRITES BACK is block `t` of the map of the arguments. -/
theorem flushed_eq (c : Dev nD) (t : Fin cfg0.N) :
    (dats m 0 c).flushed 3 t
      = ((cfg0.win 3).blk t).view.read (Elt Ideal) (out (argA m c) (argH m c) (argW m c)) := by
  rw [Value.flushed3]
  unfold out0_3
  rw [View.canon_unit_zero origin]
  simp only [View.ld_unit_zero (S := S128x4096) origin, View.ld_unit_zero (S := S4096x4096) origin,
    View.ld_unit_zero (S := S1x4096) origin]
  obtain ⟨e00, e01, e10, e11, e20, e21, e31, e30⟩ := block_indices t
  funext j
  show k0_pay1 (F := Ideal) (iblk m c 0 t) (iblk m c 1 t) (iblk m c 2 t) j
    = out (argA m c) (argH m c) (argW m c) (((cfg0.win 3).blk t).view.emb j)
  have hj0 : (j 0).val < 128 := (j 0).isLt
  have hj1 : (j 1).val < 4096 := (j 1).isLt
  have hr : win0_3.index t (0 : Fin 2) * 128 + (j 0).val < 4096 := by omega
  have ej : j = ix2 (⟨(j 0).val, hj0⟩ : Fin 128) (⟨(j 1).val, hj1⟩ : Fin 4096) :=
    funext fun a => Fin.ext (by
      match a with
      | ⟨0, _⟩ => rfl
      | ⟨1, _⟩ => rfl)
  have ee : ((cfg0.win 3).blk t).view.emb j
      = ix2 (⟨win0_3.index t (0 : Fin 2) * 128 + (j 0).val, hr⟩ : Fin 4096) (⟨(j 1).val, hj1⟩ : Fin 4096) :=
    funext fun a => Fin.ext (by
      match a with
      | ⟨0, _⟩ =>
        show win0_3.index t (0 : Fin 2) * 128 + 1 * (j 0).val = win0_3.index t (0 : Fin 2) * 128 + (j 0).val; omega
      | ⟨1, _⟩ => show win0_3.index t (1 : Fin 2) * 4096 + 1 * (j 1).val = (j 1).val; omega)
  refine (congrArg (k0_pay1 (F := Ideal) (iblk m c 0 t) (iblk m c 1 t) (iblk m c 2 t)) ej).trans ?_
  refine (block_value (argA m c) (argH m c) (argW m c) (win0_3.index t (0 : Fin 2))
    (iblk m c 0 t) (iblk m c 1 t) (iblk m c 2 t)
    (fun p k r hrr => lhs_block_at m c t p k r (by omega) e01)
    (fun q k => rhs_block_at m c t q k e10 e11)
    (fun q => bias_block_at m c t q e20 e21)
    ⟨(j 0).val, hj0⟩ ⟨(j 1).val, hj1⟩ ⟨win0_3.index t (0 : Fin 2) * 128 + (j 0).val, hr⟩ rfl).trans ?_
  exact congrArg (out (argA m c) (argH m c) (argW m c)) ee.symm

/-! ## The blocks tile the result -/

/-- An index of the result is in point `t`'s block iff each coordinate is in the block's range on its axis. -/
theorem mem_blk (t : Fin cfg0.N) (i : S4096x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v20).slice (win0_3.rect t)).set ↔ _
  rw [View.set_slice_whole, Rect.mem_set_unit]
  exact Iff.rfl

/-- Every index of the result lies in the block of the point whose row block is its row divided by 128. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := block_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 4096 ≤ (i 1).val ∧ (i 1).val < win0_3.index t (1 : Fin 2) * 4096 + 4096
    omega

/-- THE RESULT ARRAY after the run is the map of the arguments. -/
theorem final (c : Dev nD) : (dats m 0 c).arrAt 3 cfg0.N = out (argA m c) (argH m c) (argW m c) :=
  (dats m 0 c).arrAt_eq_of_cover 3 (out (argA m c) (argH m c) (argW m c)) (fun t _ => flushed_eq m c t) cover

/-- The kernel's run: every weakly fair execution terminates with the result array at the map of the arguments,
    the arguments unchanged. -/
theorem run : θ_run defs (onTc (τ := τ) (main (F := Ideal))) ⟨m, fun _ => 0, ρ⟩ fun r => ∀ c : Dev nD,
      r.2.mem ((c : Thread nD τ).loc main_v20) = out (argA m c) (argH m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AsAffine

end
-- ==== Proof.ReferenceIsAffine.lean ====
/-
  The reference's result, index by index, is the hashed affine map.

  The reference appends a column of ones to `a`, gathers the whole 4096 × 4097 virtual weight matrix `W[h]`, and
  contracts the 4097 columns.  Read at `(b, q)` its result is a sum over `k < 4097` of the extended row of `a`
  times the weight row: the first 4096 left factors are `a (b, k)`, the last is the constant one, and the right
  factor at `k` is the table at the position word `h (q, k)` names.  Splitting off the last term gives the map.
-/
import proofs.«169024_j15513421873631_2_alg».proof.Proof.Gen.ReferenceIdeal.Read
import proofs.«169024_j15513421873631_2_alg».proof.Proof.HashedAffine
import Idealize.ShloMosaic.Lib.ValueIdx
import Idealize.ShloMosaic.Lib.Pipeline.Value

noncomputable section

namespace Cert.ReferenceIdeal.AsAffine

open Cert.ReferenceIdeal Cert.ReferenceIdeal.Gen Cert.ReferenceIdeal.Read Idealize.ShloMosaic Idealize.ShloMosaic.ValueIdx
open Cert.HashedAffine

/-- The extended row of `a` at one of its first 4096 columns is `a` there. -/
theorem row_left (x0 : (⟨S4096x4096, .f32⟩ : BufTy).Contents (Elt Ideal)) (b q k : Fin 4096) :
    val_main_v1 (F := Ideal) x0 (lidx_main_v9 (ix2 b q) k.castSucc) = x0 (ix2 b k) := by
  unfold val_main_v1
  exact concatenate_pair_apply_left 1 x0 _ concatenates_S4096x4096_S4096x1_S4096x4097_d1 _ rfl (ix2 b k)
    (fun a => by match a with | ⟨0, _⟩ => rfl | ⟨1, _⟩ => rfl)

/-- The extended row of `a` at its last column is the appended one. -/
theorem row_last (x0 : (⟨S4096x4096, .f32⟩ : BufTy).Contents (Elt Ideal)) (b q : Fin 4096) :
    val_main_v1 (F := Ideal) x0 (lidx_main_v9 (ix2 b q) (Fin.last 4096)) = (1 : EReal) := by
  unfold val_main_v1
  rw [concatenate_pair_apply_right 1 x0 (val_main_v0 (F := Ideal)) concatenates_S4096x4096_S4096x1_S4096x4097_d1 _ rfl rfl
    (ix2 b (0 : Fin 1))
    (fun a ha => by match a with | ⟨0, _⟩ => rfl | ⟨1, _⟩ => exact absurd rfl ha)
    rfl]
  rw [val_main_v0_apply, val_main_cst_apply]
  exact ofBits_one

/-- The start index the gather reads at `(q, k)` is the normalised word `h (q, k)`. -/
theorem start_at (x1 : (⟨S4096x4097, .i32⟩ : BufTy).Contents (Elt Ideal)) (b q : Fin 4096) (k : Fin 4097) :
    val_main_v7 (F := Ideal) x1 (takeIdx (ridx_main_v9 (ix2 b q) k)) = wrapWord (x1 (ix2 q k)) := by
  have e : idx_main_v7 (takeIdx (ridx_main_v9 (ix2 b q) k)) = ix2 q k :=
    funext fun a => Fin.ext (by match a with | ⟨0, _⟩ => rfl | ⟨1, _⟩ => rfl)
  rw [val_main_v7_apply, e, val_main_v6_apply, val_main_v3_apply, val_main_v5_apply, val_main_v2_apply, val_main_v4_apply,
    val_main_c_apply, val_main_c_0_apply]
  rfl

/-- The gathered weight row of output column `q` at column `k`. -/
theorem weight_at (x1 : (⟨S4096x4097, .i32⟩ : BufTy).Contents (Elt Ideal)) (x2 : (⟨S65536, .f32⟩ : BufTy).Contents (Elt Ideal))
    (b q : Fin 4096) (k : Fin 4097) :
    val_main_v8 (F := Ideal) x1 x2 (ridx_main_v9 (ix2 b q) k) = weight x1 x2 q k := by
  unfold val_main_v8
  refine (gather_take_apply (N := 65536) (R := 4096) (C := 4097) (by omega)
    gather_S65536_S4096x4097x1_S4096x4097_n_0_n_n_0_2_1_wf x2 (val_main_v7 (F := Ideal) x1) (ridx_main_v9 (ix2 b q) k)).trans ?_
  exact read_bucket x2 _ _ (start_at x1 b q k) _

/-- THE REFERENCE IS THE MAP: its last stage, as a function of the three arguments. -/
theorem result_eq (x0 : (⟨S4096x4096, .f32⟩ : BufTy).Contents (Elt Ideal)) (x1 : (⟨S4096x4097, .i32⟩ : BufTy).Contents (Elt Ideal))
    (x2 : (⟨S65536, .f32⟩ : BufTy).Contents (Elt Ideal)) :
    val_main_v9 (F := Ideal) x0 x1 x2 = out x0 x1 x2 := by
  funext i
  obtain ⟨b, q, rfl⟩ : ∃ (b q : Fin 4096), i = ix2 b q := ⟨i 0, i 1, eq_ix2 i⟩
  rw [val_main_v9_apply, out_ix2]
  refine (sum_with_one (fun k => val_main_v1 (F := Ideal) x0 (lidx_main_v9 (ix2 b q) k))
    (fun k => val_main_v8 (F := Ideal) x1 x2 (ridx_main_v9 (ix2 b q) k)) (row_last x0 b q)).trans ?_
  unfold at_
  congr 1
  · refine Finset.sum_congr rfl fun k _ => ?_
    rw [row_left, weight_at]
  · exact weight_at x1 x2 b q _

end Cert.ReferenceIdeal.AsAffine

end
-- ==== Proof.lean ====
/-
  The claim: a hashed affine layer computed two ways is one function over the extended reals.

  A table `W` of 65536 reals is read through an array `h` of words, `W[h (i, k)]`, a word read as a table position
  the way array indexing reads it (a negative word moved up by the table's length, then clamped into the table).
  The reference appends a column of ones to `a`, gathers the whole 4096 × 4097 matrix `W[h]` and contracts the
  4097 columns.  The kernel gathers the first 4096 columns and the last one apart, multiplies `a` against the
  4096 × 4096 part block of 128 rows by block of 128 rows, and adds the last column as a bias row.  Both are

      out (b, i) = ∑ k < 4096, a (b, k) · W[h (i, k)]  +  W[h (i, 4096)] ,

  the reference's by splitting the last term off its sum, where the left factor is the one (`1 · x = x`), the
  kernel's by reading the product into a zero accumulator as the bare sum and the 32 blocks as a tiling of the
  result.  Nothing here divides, cancels or distributes, so the identity holds at the infinities too and the
  precondition (finite inputs) is never opened.

  Proof/HashedAffine.lean states the map; Proof/ReferenceIsAffine.lean reads the reference's run as the map;
  Proof/HostPrefix.lean reads the kernel's three operands off the host operations in front of it,
  Proof/BodyAtIndex.lean the body's stored value at an index, Proof/KernelIsAffine.lean the result array from
  the blocks; Proof/LibGatherRows.lean is the reading of a gather at a column of start indices.  The three frames
  are the generated ones (the reference's is its generated run with the result dropped); the idealization
  rewrote nothing, so `preserves` is `True`.
-/
import proofs.«169024_j15513421873631_2_alg».proof.Defs
import proofs.«169024_j15513421873631_2_alg».proof.Proof.Gen.Kernel
import proofs.«169024_j15513421873631_2_alg».proof.Proof.Gen.Kernel.Skeleton
import proofs.«169024_j15513421873631_2_alg».proof.Proof.Gen.Kernel.Launch
import proofs.«169024_j15513421873631_2_alg».proof.Proof.Gen.Kernel.Points
import proofs.«169024_j15513421873631_2_alg».proof.Proof.Gen.Kernel.Frame
import proofs.«169024_j15513421873631_2_alg».proof.Proof.Gen.KernelIdeal
import proofs.«169024_j15513421873631_2_alg».proof.Proof.Gen.KernelIdeal.Skeleton
import proofs.«169024_j15513421873631_2_alg».proof.Proof.Gen.KernelIdeal.Launch
import proofs.«169024_j15513421873631_2_alg».proof.Proof.Gen.KernelIdeal.Points
import proofs.«169024_j15513421873631_2_alg».proof.Proof.Gen.KernelIdeal.Frame
import proofs.«169024_j15513421873631_2_alg».proof.Proof.Gen.ReferenceIdeal
import proofs.«169024_j15513421873631_2_alg».proof.Proof.Gen.Pre_finite_inputs
import proofs.«169024_j15513421873631_2_alg».proof.Proof.Gen.KernelIdeal.Value
import proofs.«169024_j15513421873631_2_alg».proof.Proof.Gen.ReferenceIdeal.Run
import proofs.«169024_j15513421873631_2_alg».proof.Proof.Gen.ReferenceIdeal.Read
import proofs.«169024_j15513421873631_2_alg».proof.Proof.KernelIsAffine
import proofs.«169024_j15513421873631_2_alg».proof.Proof.ReferenceIsAffine
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `a`, `h` and `W`, both programs end with the hashed affine map of those arguments
    in their result arrays. -/
theorem algebraic : Cert.algebraic_KernelIdeal_ReferenceIdeal := by
  intro m ρ m' ρ' _ hagree
  refine ⟨fun c => Cert.HashedAffine.out (Cert.KernelIdeal.AsAffine.argA m c) (Cert.KernelIdeal.AsAffine.argH m c)
    (Cert.KernelIdeal.AsAffine.argW m c), Cert.KernelIdeal.AsAffine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.AsAffine.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
